-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 67
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x64, .f32⟩
  | .hbm, ⟨66, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  Two stacked mean-aggregation graph layers, as named functions of the arrays.

  An edge list e (two rows: sources, destinations) over N = 100000 nodes. deg(v) counts the edges that end at v;
  degInv(v) = 1 / max(deg v, 1) where deg v > 0 and 0 elsewhere. For node features h, aggregate h e is at row v the sum
  of the rows h(src) over the edges src → v (a gather of the source rows, scatter-added at the destinations), times
  degInv v: the mean of v's in-neighbours' features. One layer is

      layer h = (aggregate h e · W_l + b) + h · W_r,

  the first followed by max(·, 0); the network is layer1 (layer0 x). Everything is written with the reference program's
  own operations, so that its run ends at `result` of its arguments by unfolding, and so that the aggregation — the part
  the two programs share — is ONE function that no later proof opens.
-/
import proofs.«142955_j38225208934555_1_alg».proof.Proof.Gen.ReferenceIdeal

noncomputable section

namespace Cert.Sage

open Cert.ReferenceIdeal Cert.ReferenceIdeal.Gen Idealize.ShloMosaic

variable {F : FTy → Type} [FloatOps F]

/-- Row r of the edge list, as a vector over the edges. -/
def edgeRow0 (e : IVec S2x1600000 32) : IVec S1600000 32 :=
  shapeCast S1600000 (extractStridedSlice S1x1600000 ![0, 0] e slices_S2x1600000_S1x1600000_0_0) shapeCasts_S1x1600000_S1600000
def edgeRow1 (e : IVec S2x1600000 32) : IVec S1600000 32 :=
  shapeCast S1600000 (extractStridedSlice S1x1600000 ![1, 0] e slices_S2x1600000_S1x1600000_1_0) shapeCasts_S1x1600000_S1600000

/-- A row of destinations as the column of indices a scatter takes. -/
def scatterIdx (dst : IVec S1600000 32) : IVec S1600000x1 32 :=
  broadcastInDim S1600000x1 ![0] bcast_S1600000_S1600000x1_0 dst

/-- A row of sources as the column of indices a gather takes: a negative source wraps once by the number of nodes. -/
def gatherIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- deg v: a one added at v for every edge that ends at v. -/
def deg (e : IVec S2x1600000 32) : FVec F S100000 .f32 :=
  Host.scatterAdd scatter_S100000_S1600000x1_S1600000_n_0_0_1
    (broadcastInDim S100000 ![] bcast_S_S100000 (constant (F := F) S_ .f32 0x00000000#32))
    (scatterIdx (edgeRow1 e))
    (broadcastInDim S1600000 ![] bcast_S_S1600000 (constant (F := F) S_ .f32 0x3F800000#32))

/-- degInv v = 1 / max(deg v, 1) where deg v > 0, and 0 elsewhere. -/
def degInv (e : IVec S2x1600000 32) : FVec F S100000 .f32 :=
  select
    (cmpf .ogt (deg (F := F) e) (broadcastInDim S100000 ![] bcast_S_S100000 (constant (F := F) S_ .f32 0x00000000#32)))
    (Host.divf (broadcastInDim S100000 ![] bcast_S_S100000 (constant (F := F) S_ .f32 0x3F800000#32))
      (maximumf (deg (F := F) e) (broadcastInDim S100000 ![] bcast_S_S100000 (constant (F := F) S_ .f32 0x3F800000#32))))
    (broadcastInDim S100000 ![] bcast_S_S100000 (id (constant (F := F) S_ .f32 0x00000000#32)))

/-- Gather the source rows of h, add them up at the destinations, scale row v by dinv v — for ANY rows of sources and
    destinations and any per-node scale. -/
def aggregateWith (h : FVec F S100000x128 .f32) (src dst : IVec S1600000 32) (dinv : FVec F S100000 .f32) :
    FVec F S100000x128 .f32 :=
  mulf
    (Host.scatterAdd scatter_S100000x128_S1600000x1_S1600000x128_1_0_0_1
      (broadcastInDim S100000x128 ![] bcast_S_S100000x128 (constant (F := F) S_ .f32 0x00000000#32))
      (scatterIdx dst)
      (Host.gather gather_S100000x128_S1600000x1_S1600000x128_1_0_n_n_0_1_1128 h (gatherIdx src)))
    (broadcastInDim S100000x128 ![0, 1] bcast_S100000x1_S100000x128_0_1
      (broadcastInDim S100000x1 ![0] bcast_S100000_S100000x1_0 dinv))

/-- The mean of the in-neighbours' rows: the edge list's own rows, scaled by the degree's guarded reciprocal. -/
def aggregate (h : FVec F S100000x128 .f32) (e : IVec S2x1600000 32) : FVec F S100000x128 .f32 :=
  aggregateWith h (edgeRow0 e) (edgeRow1 e) (degInv (F := F) e)

/-- A bias vector as the array with that vector in every row. -/
def biasRows128 (b : FVec F S128 .f32) : FVec F S100000x128 .f32 :=
  broadcastInDim S100000x128 ![0, 1] bcast_S1x128_S100000x128_0_1 (broadcastInDim S1x128 ![1] bcast_S128_S1x128_1 b)
def biasRows64 (b : FVec F S64 .f32) : FVec F S100000x64 .f32 :=
  broadcastInDim S100000x64 ![0, 1] bcast_S1x64_S100000x64_0_1 (broadcastInDim S1x64 ![1] bcast_S64_S1x64_1 b)

/-- The linear part of a layer from an already aggregated array a and a bias ARRAY B: (a · W_l + B) + h · W_r. -/
def linearOver128 (a h : FVec F S100000x128 .f32) (wl : FVec F S128x128 .f32) (B : FVec F S100000x128 .f32)
    (wr : FVec F S128x128 .f32) : FVec F S100000x128 .f32 :=
  addf (addf (Host.dotGeneral dot_S100000x128_S128x128_S100000x128_1_0_0_1_n_n none a wl) B)
    (Host.dotGeneral dot_S100000x128_S128x128_S100000x128_1_0_0_1_n_n none h wr)
def linearOver64 (a h : FVec F S100000x128 .f32) (wl : FVec F S128x64 .f32) (B : FVec F S100000x64 .f32)
    (wr : FVec F S128x64 .f32) : FVec F S100000x64 .f32 :=
  addf (addf (Host.dotGeneral dot_S100000x128_S128x64_S100000x64_1_0_0_1_n_n none a wl) B)
    (Host.dotGeneral dot_S100000x128_S128x64_S100000x64_1_0_0_1_n_n none h wr)

/-- The linear part with a bias vector b in every row: (a · W_l + b) + h · W_r. -/
def linear128 (a h : FVec F S100000x128 .f32) (wl : FVec F S128x128 .f32) (b : FVec F S128 .f32) (wr : FVec F S128x128 .f32) :
    FVec F S100000x128 .f32 :=
  linearOver128 a h wl (biasRows128 b) wr
def linear64 (a h : FVec F S100000x128 .f32) (wl : FVec F S128x64 .f32) (b : FVec F S64 .f32) (wr : FVec F S128x64 .f32) :
    FVec F S100000x64 .f32 :=
  linearOver64 a h wl (biasRows64 b) wr

/-- max(·, 0), entry by entry. -/
def relu128 (z : FVec F S100000x128 .f32) : FVec F S100000x128 .f32 :=
  maximumf z (broadcastInDim S100000x128 ![] bcast_S_S100000x128 (constant (F := F) S_ .f32 0x00000000#32))

/-- The first layer, with its max(·, 0). -/
def layer0 (x : FVec F S100000x128 .f32) (e : IVec S2x1600000 32) (wl : FVec F S128x128 .f32) (b : FVec F S128 .f32)
    (wr : FVec F S128x128 .f32) : FVec F S100000x128 .f32 :=
  relu128 (linear128 (aggregate x e) x wl b wr)

/-- The second layer. -/
def layer1 (h : FVec F S100000x128 .f32) (e : IVec S2x1600000 32) (wl : FVec F S128x64 .f32) (b : FVec F S64 .f32)
    (wr : FVec F S128x64 .f32) : FVec F S100000x64 .f32 :=
  linear64 (aggregate h e) h wl b wr

/-- The network. -/
def result (x : FVec F S100000x128 .f32) (e : IVec S2x1600000 32) (wl0 : FVec F S128x128 .f32) (b0 : FVec F S128 .f32)
    (wr0 : FVec F S128x128 .f32) (wl1 : FVec F S128x64 .f32) (b1 : FVec F S64 .f32) (wr1 : FVec F S128x64 .f32) :
    FVec F S100000x64 .f32 :=
  layer1 (layer0 x e wl0 b0 wr0) e wl1 b1 wr1

end Cert.Sage

end
-- ==== Proof.RefRun.lean ====
/-
  The reference program's run, read back.

  The reference is seventy host operations in a row: the edge list's two rows, the degree count and its guarded
  reciprocal, then twice — gather the source rows, add them at the destinations, scale by the reciprocal, two matrix
  products and a bias — with max(·, 0) between the two rounds. Listed in order they are @main itself, so every weakly fair
  execution terminates with each buffer at the operations' composed term of the launch contents; composed, the last
  buffer's term is `Sage.result` of the eight arguments (both rounds aggregate through the one function
  `Sage.aggregate`, the second of the first round's result), and no operation writes an argument.
-/
import proofs.«142955_j38225208934555_1_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's seventy operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    nullary main_cst_3 (constant S_ .f32 0x3F800000#32),
    unary main_cst_3 main_v12 (broadcastInDim S100000 ![] bcast_S_S100000 : (⟨S_, .f32⟩ : BufTy).Contents (Elt F) → (⟨S100000, .f32⟩ : BufTy).Contents (Elt F)),
    binary main_v12 main_v11 main_v13 (Host.divf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_arg0 main_v20 main_v21 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v22 (broadcastInDim S100000x128 ![] bcast_S_S100000x128 : (⟨S_, .f32⟩ : BufTy).Contents (Elt F) → (⟨S100000x128, .f32⟩ : BufTy).Contents (Elt F)),
    unary main_v3 main_v23 (broadcastInDim S1600000x1 ![0] bcast_S1600000_S1600000x1_0 : (⟨S1600000, .i32⟩ : BufTy).Contents (Elt F) → (⟨S1600000x1, .i32⟩ : BufTy).Contents (Elt F)),
    ternary main_v22 main_v23 main_v21 main_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v14 main_v25 (broadcastInDim S100000x1 ![0] bcast_S100000_S100000x1_0 : (⟨S100000, .f32⟩ : BufTy).Contents (Elt F) → (⟨S100000x1, .f32⟩ : BufTy).Contents (Elt F)),
    unary main_v25 main_v26 (broadcastInDim S100000x128 ![0, 1] bcast_S100000x1_S100000x128_0_1 : (⟨S100000x1, .f32⟩ : BufTy).Contents (Elt F) → (⟨S100000x128, .f32⟩ : BufTy).Contents (Elt F)),
    binary main_v24 main_v26 main_v27 (mulf : (⟨S100000x128, .f32⟩ : BufTy).Contents (Elt F) → (⟨S100000x128, .f32⟩ : BufTy).Contents (Elt F) → (⟨S100000x128, .f32⟩ : BufTy).Contents (Elt F)),
    binary main_v27 main_arg2 main_v28 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v28 main_v30 main_v31 (addf : (⟨S100000x128, .f32⟩ : BufTy).Contents (Elt F) → (⟨S100000x128, .f32⟩ : BufTy).Contents (Elt F) → (⟨S100000x128, .f32⟩ : BufTy).Contents (Elt F)),
    binary main_arg0 main_arg4 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v31 main_v32 main_v33 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v33) (TRef.of (T := ⟨S100000x128, .f32⟩) main_call1_v0) (TRef.of (T := ⟨S100000x128, .f32⟩) main_v34) maximumf,
    nullary main_c_7 (constantI S_ 32 0#32),
    unary main_c_7 main_v35 (broadcastInDim S1600000 ![] bcast_S_S1600000 : (⟨S_, .i32⟩ : BufTy).Contents (Elt F) → (⟨S1600000, .i32⟩ : BufTy).Contents (Elt F)),
    binary main_v1 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v37 (broadcastInDim S1600000 ![] bcast_S_S1600000 : (⟨S_, .i32⟩ : BufTy).Contents (Elt F) → (⟨S1600000, .i32⟩ : BufTy).Contents (Elt F)),
    binary main_v1 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_v1 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v34 main_v40 main_v41 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v42 (broadcastInDim S100000x128 ![] bcast_S_S100000x128 : (⟨S_, .f32⟩ : BufTy).Contents (Elt F) → (⟨S100000x128, .f32⟩ : BufTy).Contents (Elt F)),
    unary main_v3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v14 main_v45 (broadcastInDim S100000x1 ![0] bcast_S100000_S100000x1_0 : (⟨S100000, .f32⟩ : BufTy).Contents (Elt F) → (⟨S100000x1, .f32⟩ : BufTy).Contents (Elt F)),
    unary main_v45 main_v46 (broadcastInDim S100000x128 ![0, 1] bcast_S100000x1_S100000x128_0_1 : (⟨S100000x1, .f32⟩ : BufTy).Contents (Elt F) → (⟨S100000x128, .f32⟩ : BufTy).Contents (Elt F)),
    binary main_v44 main_v46 main_v47 (mulf : (⟨S100000x128, .f32⟩ : BufTy).Contents (Elt F) → (⟨S100000x128, .f32⟩ : BufTy).Contents (Elt F) → (⟨S100000x128, .f32⟩ : BufTy).Contents (Elt F)),
    binary main_v47 main_arg5 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg6 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v48 main_v50 main_v51 (addf : (⟨S100000x64, .f32⟩ : BufTy).Contents (Elt F) → (⟨S100000x64, .f32⟩ : BufTy).Contents (Elt F) → (⟨S100000x64, .f32⟩ : BufTy).Contents (Elt F)),
    binary main_v34 main_arg7 main_v52 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v51 main_v52 main_v53 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub ..⟩

set_option maxRecDepth 8192 in
set_option maxHeartbeats 28000000 in
/-- On every device, for any float values, from any memory with zero counters: every weakly fair execution of @main
    terminates with the result buffer at `Sage.result` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = Cert.Sage.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v53).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HandRun

end
-- ==== Proof.KernelRun.lean ====
/-
  The kernel program's run, with its result buffer named.

  The program runs as six segments — three stretches of host operations, the first sweep, a stretch, the second sweep —
  and the launch over them ends in a state where every buffer that outlives a sweep holds the contents of the last
  segment boundary. Read off that state: the result buffer is the second sweep's result array at that boundary, and
  each of the eight arguments, written by no host operation and by no sweep, is as launched.
-/
import proofs.«142955_j38225208934555_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents of it and the argument arrays as launched. -/
theorem run_named : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«142955_j38225208934555_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibLinearPairBlock.lean ====
/-
  A block of rows of a linear layer with two matrix products and a bias, over the extended reals.

  The layer Y = (A · W_l + B) + H · W_r, computed one block of m rows at a time as (a · W_l + h · W_r) + b from the
  blocks a, h of A, H and a block b of B: at a block index j the block computation is Y read where the result block puts
  j. Each product of a row block is that block of the whole product (rows of a product depend on the same rows of the left
  factor only), and (p + q) + b = (p + b) + q needs only that addition on the extended reals is commutative and
  associative — it holds at infinite values too, so nothing is assumed finite. How the blocks sit in their arrays is
  left to index maps of which only the coordinates are assumed (rows shifted by `off`, columns kept), and the bias blocks
  need agree at the one index read.
-/
import proofs.«142955_j38225208934555_1_alg».proof.Proof.LibRowBlockProduct
import Idealize.ShloMosaic.Lib.ValueIdx

noncomputable section

namespace Cert.Lib

open Idealize.ShloMosaic Idealize.ShloMosaic.ValueIdx

/-- (a · w_l + h · w_r) + b on an m-row block, both products accumulated into zero, read at a block index `j`, is
    (A · W_l + B) + H · W_r read where the result block puts `j`. -/
theorem linear_pair_row_block {m M k n : Nat} {φ₁ φ₂ : FTy} (prec : Option ContractPrecision)
    (xa xh : FVec Ideal ⟨2, ![m, k]⟩ φ₁) (wl wr : FVec Ideal ⟨2, ![k, n]⟩ φ₂) (bb : FVec Ideal ⟨2, ![m, n]⟩ .f32)
    (A H : FVec Ideal ⟨2, ![M, k]⟩ φ₁) (Wl Wr : FVec Ideal ⟨2, ![k, n]⟩ φ₂) (B : FVec Ideal ⟨2, ![M, n]⟩ .f32)
    (ea eh : (⟨2, ![m, k]⟩ : Shape).Idx → (⟨2, ![M, k]⟩ : Shape).Idx)
    (el er : (⟨2, ![k, n]⟩ : Shape).Idx → (⟨2, ![k, n]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hwl : ∀ y, wl y = Wl (el y)) (hwr : ∀ y, wr y = Wr (er y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (hel0 : ∀ y, (el y 0).val = (y 0).val) (hel1 : ∀ y, (el y 1).val = (y 1).val)
    (her0 : ∀ y, (er y 0).val = (y 0).val) (her1 : ∀ y, (er y 1).val = (y 1).val)
    (heo0 : ∀ y, (eo y 0).val = off + (y 0).val) (heo1 : ∀ y, (eo y 1).val = (y 1).val)
    (j : (⟨2, ![m, n]⟩ : Shape).Idx) (hb : bb j = B (eo j)) :
    addf (addf (matmul (DotDims.plain m k n) prec xa wl (constant ⟨2, ![m, n]⟩ .f32 0x00000000#32))
        (matmul (DotDims.plain m k n) prec xh wr (constant ⟨2, ![m, n]⟩ .f32 0x00000000#32))) bb j
      = addf (addf (Host.dotGeneral (DotDims.plain M k n) prec A Wl) B) (Host.dotGeneral (DotDims.plain M k n) prec H Wr) (eo j) := by
  rw [addf_apply, addf_apply, addf_apply, addf_apply,
    plain_product_row_block prec xa wl A Wl ea el eo off hxa hwl hea0 hea1 hel0 hel1 heo0 heo1 j,
    plain_product_row_block prec xh wr H Wr eh er eo off hxh hwr heh0 heh1 her0 her1 heo0 heo1 j, hb]
  exact add_right_comm _ _ _

end Cert.Lib

end
-- ==== Proof.KernelBlocks.lean ====
/-
  What each of the kernel's two grid sweeps leaves in its result array.

  Both sweeps cut the node axis into twenty blocks of 5000 rows. At block t the body reads rows 5000 t … 5000 t + 4999 of
  the aggregated array and of the feature array, both weight matrices whole and the bias row, and stores
  (a · W_l + h · W_r) + b (the first sweep: its maximum with 0). A product of a block of rows is that block of the whole
  product, so the stored block is the block of Y = (A · W_l + B) + H · W_r (the first sweep: max(Y, 0)) with B the
  array carrying the bias row in every row; the two arrangements of the three summands agree on the extended reals by
  commutativity and associativity alone. The twenty blocks tile the array — row r lies in block r / 5000 — so after the
  sweep the result array IS that one function of the arrays the sweep found on entry.
-/
import proofs.«142955_j38225208934555_1_alg».proof.Proof.Gen.KernelIdeal.Frame
import proofs.«142955_j38225208934555_1_alg».proof.Proof.LibLinearPairBlock
import proofs.«142955_j38225208934555_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-! ## The first sweep's stored block at a block index -/

/-- The first sweep's payload at a block index `j`, from blocks that are their arrays read through index maps with
    rows shifted by `off` and columns kept, and a bias row that the bias array repeats. -/
theorem pay0_at (x0 x1 : Vec Ideal S5000x128 .f32) (x2 x3 : Vec Ideal S128x128 .f32) (x4 : Vec Ideal S1x128 .f32)
    (A H : FVec Ideal S100000x128 .f32) (Wl Wr : FVec Ideal S128x128 .f32) (B : FVec Ideal S100000x128 .f32)
    (ea eh eo : S5000x128.Idx → S100000x128.Idx) (el er : S128x128.Idx → S128x128.Idx) (off : Nat)
    (h0 : ∀ y, x0 y = A (ea y)) (h1 : ∀ y, x1 y = H (eh y)) (h2 : ∀ y, x2 y = Wl (el y)) (h3 : ∀ y, x3 y = Wr (er y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (hel0 : ∀ y, (el y 0).val = (y 0).val) (hel1 : ∀ y, (el y 1).val = (y 1).val)
    (her0 : ∀ y, (er y 0).val = (y 0).val) (her1 : ∀ y, (er y 1).val = (y 1).val)
    (heo0 : ∀ y, (eo y 0).val = off + (y 0).val) (heo1 : ∀ y, (eo y 1).val = (y 1).val)
    (j : S5000x128.Idx) (hb : x4 (ix2 0 (j 1)) = B (eo j)) :
    k0_pay1 x0 x1 x2 x3 x4 j = Cert.Sage.relu128 (Cert.Sage.linearOver128 A H Wl B Wr) (eo j) := by
  unfold k0_pay1 Cert.Sage.relu128 Cert.Sage.linearOver128
  simp only [shapeCast_self]
  rw [maximumf_apply, maximumf_apply]
  refine congrArg₂ max ?_ rfl
  exact Cert.Lib.linear_pair_row_block (m := 5000) (M := 100000) (k := 128) (n := 128) none
    (truncf .bf16 x0 bitsLt_bf16_f32) (truncf .bf16 x1 bitsLt_bf16_f32) (truncf .bf16 x2 bitsLt_bf16_f32)
    (truncf .bf16 x3 bitsLt_bf16_f32) (broadcastTo S5000x128 x4 broadcasts_S1x128_S5000x128) A H Wl Wr B ea eh el er eo off
    h0 h1 h2 h3 hea0 hea1 heh0 heh1 hel0 hel1 her0 her1 heo0 heo1 j
    ((broadcastTo_apply x4 broadcasts_S1x128_S5000x128 j (ix2 0 (j 1)) (fun a => by
      match a with
      | ⟨0, _⟩ => rfl
      | ⟨1, _⟩ => rfl)).trans hb)

/-! ## The first sweep: its blocks, and the array they tile -/

section Sweep0

variable (V : (c : Dev nD) → (b : Ref sig .tc) → Buf (Elt Ideal) ((c : Thread nD τ).loc b))

/-- The first sweep's index maps, decided over its twenty points: the two row-blocked inputs and the result move down
    the rows with the point, the weights and the bias stay at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of max((A · W_l + B) + H · W_r, 0), for the arrays the sweep finds. -/
theorem flushed0 (c : Dev nD) (A H : FVec Ideal S100000x128 .f32) (Wl Wr : FVec Ideal S128x128 .f32)
    (B : FVec Ideal S100000x128 .f32)
    (hA : V c main_v27 = A) (hH : V c main_arg0 = H) (hWl : V c main_arg2 = Wl) (hWr : V c main_arg4 = Wr)
    (hB : ∀ (i : S100000x128.Idx) (k : S1x128.Idx), (k 0).val = 0 → (k 1).val = (i 1).val → V c main_v28 k = B i)
    (t : Fin cfg0.N) :
    (dat0 V c).flushed 5 t
      = ((cfg0.win 5).blk t).view.read (Elt Ideal) (Cert.Sage.relu128 (Cert.Sage.linearOver128 A H Wl B Wr)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx0 t
  funext j
  show k0_pay1 (iblk0 V c 0 t) (iblk0 V c 1 t) (iblk0 V c 2 t) (iblk0 V c 3 t) (iblk0 V c 4 t) j
    = Cert.Sage.relu128 (Cert.Sage.linearOver128 A H Wl B Wr) (((cfg0.win 5).blk t).view.emb j)
  subst hA hH hWl hWr
  refine pay0_at (iblk0 V c 0 t) (iblk0 V c 1 t) (iblk0 V c 2 t) (iblk0 V c 3 t) (iblk0 V c 4 t)
    (V c main_v27) (V c main_arg0) (V c main_arg2) (V c main_arg4) B
    (((cfg0.win 0).blk t).view.emb) (((cfg0.win 1).blk t).view.emb) (((cfg0.win 5).blk t).view.emb)
    (((cfg0.win 2).blk t).view.emb) (((cfg0.win 3).blk t).view.emb) (5000 * t.val)
    (fun y => rfl) (fun y => rfl) (fun y => rfl) (fun y => rfl)
    (fun y => ?_) (fun y => ?_) (fun y => ?_) (fun y => ?_) (fun y => ?_) (fun y => ?_) (fun y => ?_) (fun y => ?_)
    (fun y => ?_) (fun y => ?_) j ?_
  · show win0_0.index t (0 : Fin 2) * 5000 + 1 * (y 0).val = 5000 * t.val + (y 0).val
    rw [e00]; omega
  · show win0_0.index t (1 : Fin 2) * 128 + 1 * (y 1).val = (y 1).val
    rw [e01]; omega
  · show win0_1.index t (0 : Fin 2) * 5000 + 1 * (y 0).val = 5000 * t.val + (y 0).val
    rw [e10]; omega
  · show win0_1.index t (1 : Fin 2) * 128 + 1 * (y 1).val = (y 1).val
    rw [e11]; omega
  · show win0_2.index t (0 : Fin 2) * 128 + 1 * (y 0).val = (y 0).val
    rw [e20]; omega
  · show win0_2.index t (1 : Fin 2) * 128 + 1 * (y 1).val = (y 1).val
    rw [e21]; omega
  · show win0_3.index t (0 : Fin 2) * 128 + 1 * (y 0).val = (y 0).val
    rw [e30]; omega
  · show win0_3.index t (1 : Fin 2) * 128 + 1 * (y 1).val = (y 1).val
    rw [e31]; omega
  · show win0_5.index t (0 : Fin 2) * 5000 + 1 * (y 0).val = 5000 * t.val + (y 0).val
    rw [e50]; omega
  · show win0_5.index t (1 : Fin 2) * 128 + 1 * (y 1).val = (y 1).val
    rw [e51]; omega
  · refine hB _ _ ?_ ?_
    · show win0_4.index t (0 : Fin 2) * 1 + 1 * 0 = 0
      rw [e40]
    · show win0_4.index t (1 : Fin 2) * 128 + 1 * (j 1).val = win0_5.index t (1 : Fin 2) * 128 + 1 * (j 1).val
      rw [e41, e51]

/-- THE ARRAY after the first sweep: the twenty blocks tile it (row r lies in block r / 5000), so it ends holding
    max((A · W_l + B) + H · W_r, 0). -/
theorem array0 (c : Dev nD) (A H : FVec Ideal S100000x128 .f32) (Wl Wr : FVec Ideal S128x128 .f32)
    (B : FVec Ideal S100000x128 .f32)
    (hA : V c main_v27 = A) (hH : V c main_arg0 = H) (hWl : V c main_arg2 = Wl) (hWr : V c main_arg4 = Wr)
    (hB : ∀ (i : S100000x128.Idx) (k : S1x128.Idx), (k 0).val = 0 → (k 1).val = (i 1).val → V c main_v28 k = B i) :
    (dat0 V c).arrAt 5 cfg0.N = Cert.Sage.relu128 (Cert.Sage.linearOver128 A H Wl B Wr) :=
  (dat0 V c).arrAt_eq_of_cover 5 _ (fun t _ => flushed0 V c A H Wl Wr B hA hH hWl hWr hB t) fun i => by
    have hN : cfg0.N = 20 := N_0
    have hi0 : (i 0).val < 100000 := (i 0).isLt
    have hi1 : (i 1).val < 128 := (i 1).isLt
    obtain ⟨t, ht⟩ : ∃ t : Fin cfg0.N, t.val = (i 0).val / 5000 := ⟨⟨(i 0).val / 5000, by rw [hN]; omega⟩, rfl⟩
    obtain ⟨-, -, -, -, -, -, -, -, -, -, e50, e51⟩ := idx0 t
    refine ⟨t, flush0_5 t, ?_⟩
    show i ∈ ((View.whole main_v29).slice (win0_5.rect t)).set
    rw [View.set_slice_whole, Rect.mem_set_unit]
    intro a
    match a with
    | ⟨0, _⟩ =>
      show win0_5.index t (0 : Fin 2) * 5000 ≤ (i 0).val ∧ (i 0).val < win0_5.index t (0 : Fin 2) * 5000 + 5000
      rw [e50, ht]; omega
    | ⟨1, _⟩ =>
      show win0_5.index t (1 : Fin 2) * 128 ≤ (i 1).val ∧ (i 1).val < win0_5.index t (1 : Fin 2) * 128 + 128
      rw [e51]; omega

end Sweep0

/-! ## The second sweep's stored block at a block index -/

/-- The second sweep's payload at a block index `j`: the same layer without the maximum, 64 columns wide. -/
theorem pay1_at (x0 x1 : Vec Ideal S5000x128 .f32) (x2 x3 : Vec Ideal S128x64 .f32) (x4 : Vec Ideal S1x64 .f32)
    (A H : FVec Ideal S100000x128 .f32) (Wl Wr : FVec Ideal S128x64 .f32) (B : FVec Ideal S100000x64 .f32)
    (ea eh : S5000x128.Idx → S100000x128.Idx) (eo : S5000x64.Idx → S100000x64.Idx) (el er : S128x64.Idx → S128x64.Idx)
    (off : Nat)
    (h0 : ∀ y, x0 y = A (ea y)) (h1 : ∀ y, x1 y = H (eh y)) (h2 : ∀ y, x2 y = Wl (el y)) (h3 : ∀ y, x3 y = Wr (er y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (hel0 : ∀ y, (el y 0).val = (y 0).val) (hel1 : ∀ y, (el y 1).val = (y 1).val)
    (her0 : ∀ y, (er y 0).val = (y 0).val) (her1 : ∀ y, (er y 1).val = (y 1).val)
    (heo0 : ∀ y, (eo y 0).val = off + (y 0).val) (heo1 : ∀ y, (eo y 1).val = (y 1).val)
    (j : S5000x64.Idx) (hb : x4 (ix2 0 (j 1)) = B (eo j)) :
    k1_pay1 x0 x1 x2 x3 x4 j = Cert.Sage.linearOver64 A H Wl B Wr (eo j) := by
  unfold k1_pay1 Cert.Sage.linearOver64
  simp only [shapeCast_self]
  exact Cert.Lib.linear_pair_row_block (m := 5000) (M := 100000) (k := 128) (n := 64) none
    (truncf .bf16 x0 bitsLt_bf16_f32) (truncf .bf16 x1 bitsLt_bf16_f32) (truncf .bf16 x2 bitsLt_bf16_f32)
    (truncf .bf16 x3 bitsLt_bf16_f32) (broadcastTo S5000x64 x4 broadcasts_S1x64_S5000x64) A H Wl Wr B ea eh el er eo off
    h0 h1 h2 h3 hea0 hea1 heh0 heh1 hel0 hel1 her0 her1 heo0 heo1 j
    ((broadcastTo_apply x4 broadcasts_S1x64_S5000x64 j (ix2 0 (j 1)) (fun a => by
      match a with
      | ⟨0, _⟩ => rfl
      | ⟨1, _⟩ => rfl)).trans hb)

/-! ## The second sweep: its blocks, and the array they tile -/

section Sweep1

variable (V : (c : Dev nD) → (b : Ref sig .tc) → Buf (Elt Ideal) ((c : Thread nD τ).loc b))

/-- The second sweep's index maps, decided over its twenty points. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of (A · W_l + B) + H · W_r, for the arrays the sweep finds. -/
theorem flushed1 (c : Dev nD) (A H : FVec Ideal S100000x128 .f32) (Wl Wr : FVec Ideal S128x64 .f32)
    (B : FVec Ideal S100000x64 .f32)
    (hA : V c main_v42 = A) (hH : V c main_v29 = H) (hWl : V c main_arg5 = Wl) (hWr : V c main_arg7 = Wr)
    (hB : ∀ (i : S100000x64.Idx) (k : S1x64.Idx), (k 0).val = 0 → (k 1).val = (i 1).val → V c main_v43 k = B i)
    (t : Fin cfg1.N) :
    (dat1 V c).flushed 5 t
      = ((cfg1.win 5).blk t).view.read (Elt Ideal) (Cert.Sage.linearOver64 A H Wl B Wr) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx1 t
  funext j
  show k1_pay1 (iblk1 V c 0 t) (iblk1 V c 1 t) (iblk1 V c 2 t) (iblk1 V c 3 t) (iblk1 V c 4 t) j
    = Cert.Sage.linearOver64 A H Wl B Wr (((cfg1.win 5).blk t).view.emb j)
  subst hA hH hWl hWr
  refine pay1_at (iblk1 V c 0 t) (iblk1 V c 1 t) (iblk1 V c 2 t) (iblk1 V c 3 t) (iblk1 V c 4 t)
    (V c main_v42) (V c main_v29) (V c main_arg5) (V c main_arg7) B
    (((cfg1.win 0).blk t).view.emb) (((cfg1.win 1).blk t).view.emb) (((cfg1.win 5).blk t).view.emb)
    (((cfg1.win 2).blk t).view.emb) (((cfg1.win 3).blk t).view.emb) (5000 * t.val)
    (fun y => rfl) (fun y => rfl) (fun y => rfl) (fun y => rfl)
    (fun y => ?_) (fun y => ?_) (fun y => ?_) (fun y => ?_) (fun y => ?_) (fun y => ?_) (fun y => ?_) (fun y => ?_)
    (fun y => ?_) (fun y => ?_) j ?_
  · show win1_0.index t (0 : Fin 2) * 5000 + 1 * (y 0).val = 5000 * t.val + (y 0).val
    rw [e00]; omega
  · show win1_0.index t (1 : Fin 2) * 128 + 1 * (y 1).val = (y 1).val
    rw [e01]; omega
  · show win1_1.index t (0 : Fin 2) * 5000 + 1 * (y 0).val = 5000 * t.val + (y 0).val
    rw [e10]; omega
  · show win1_1.index t (1 : Fin 2) * 128 + 1 * (y 1).val = (y 1).val
    rw [e11]; omega
  · show win1_2.index t (0 : Fin 2) * 128 + 1 * (y 0).val = (y 0).val
    rw [e20]; omega
  · show win1_2.index t (1 : Fin 2) * 64 + 1 * (y 1).val = (y 1).val
    rw [e21]; omega
  · show win1_3.index t (0 : Fin 2) * 128 + 1 * (y 0).val = (y 0).val
    rw [e30]; omega
  · show win1_3.index t (1 : Fin 2) * 64 + 1 * (y 1).val = (y 1).val
    rw [e31]; omega
  · show win1_5.index t (0 : Fin 2) * 5000 + 1 * (y 0).val = 5000 * t.val + (y 0).val
    rw [e50]; omega
  · show win1_5.index t (1 : Fin 2) * 64 + 1 * (y 1).val = (y 1).val
    rw [e51]; omega
  · refine hB _ _ ?_ ?_
    · show win1_4.index t (0 : Fin 2) * 1 + 1 * 0 = 0
      rw [e40]
    · show win1_4.index t (1 : Fin 2) * 64 + 1 * (j 1).val = win1_5.index t (1 : Fin 2) * 64 + 1 * (j 1).val
      rw [e41, e51]

/-- THE ARRAY after the second sweep: the twenty blocks tile it, so it ends holding (A · W_l + B) + H · W_r. -/
theorem array1 (c : Dev nD) (A H : FVec Ideal S100000x128 .f32) (Wl Wr : FVec Ideal S128x64 .f32)
    (B : FVec Ideal S100000x64 .f32)
    (hA : V c main_v42 = A) (hH : V c main_v29 = H) (hWl : V c main_arg5 = Wl) (hWr : V c main_arg7 = Wr)
    (hB : ∀ (i : S100000x64.Idx) (k : S1x64.Idx), (k 0).val = 0 → (k 1).val = (i 1).val → V c main_v43 k = B i) :
    (dat1 V c).arrAt 5 cfg1.N = Cert.Sage.linearOver64 A H Wl B Wr :=
  (dat1 V c).arrAt_eq_of_cover 5 _ (fun t _ => flushed1 V c A H Wl Wr B hA hH hWl hWr hB t) fun i => by
    have hN : cfg1.N = 20 := N_1
    have hi0 : (i 0).val < 100000 := (i 0).isLt
    have hi1 : (i 1).val < 64 := (i 1).isLt
    obtain ⟨t, ht⟩ : ∃ t : Fin cfg1.N, t.val = (i 0).val / 5000 := ⟨⟨(i 0).val / 5000, by rw [hN]; omega⟩, rfl⟩
    obtain ⟨-, -, -, -, -, -, -, -, -, -, e50, e51⟩ := idx1 t
    refine ⟨t, flush1_5 t, ?_⟩
    show i ∈ ((View.whole main_v44).slice (win1_5.rect t)).set
    rw [View.set_slice_whole, Rect.mem_set_unit]
    intro a
    match a with
    | ⟨0, _⟩ =>
      show win1_5.index t (0 : Fin 2) * 5000 ≤ (i 0).val ∧ (i 0).val < win1_5.index t (0 : Fin 2) * 5000 + 5000
      rw [e50, ht]; omega
    | ⟨1, _⟩ =>
      show win1_5.index t (1 : Fin 2) * 64 ≤ (i 1).val ∧ (i 1).val < win1_5.index t (1 : Fin 2) * 64 + 64
      rw [e51]; omega

end Sweep1

end Cert.KernelIdeal.Blocks

end
-- ==== Proof.KernelValue.lean ====
/-
  The kernel program's result array, as the network of its arguments.

  The program is: host operations (the edge rows, the degree reciprocal, the first aggregation, the bias as a row), a
  sweep, host operations again (the second aggregation, of the first sweep's result), a second sweep. Followed buffer by
  buffer: the first sweep finds the aggregation of x, x itself, the first layer's weights and bias row, and leaves
  layer0; the host then aggregates THAT array through the same edge rows and reciprocal — no sweep writes them —, the
  second sweep finds it beside layer0 and the second layer's weights and bias row, and leaves layer1 of layer0:
  `Sage.result`. The aggregation is the one function both programs share; nothing here opens it.
-/
import proofs.«142955_j38225208934555_1_alg».proof.Proof.KernelBlocks
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-! ## A bias vector's row and rows -/

/-- The array with `b` in every row, read at an index: `b` at the column. -/
theorem biasRows128_apply (b : FVec Ideal S128 .f32) (i : S100000x128.Idx) :
    Cert.Sage.biasRows128 b i = b (ix1 (i 1)) := by
  unfold Cert.Sage.biasRows128
  exact (broadcastInDim_apply _ _ _ i (ix2 0 (i 1)) (fun a => by
        match a with
        | ⟨0, _⟩ => rfl
        | ⟨1, _⟩ => rfl)).trans
    (broadcastInDim_apply _ _ _ (ix2 0 (i 1)) (ix1 (i 1)) (fun a => by
        match a with
        | ⟨0, _⟩ => rfl))

theorem biasRows64_apply (b : FVec Ideal S64 .f32) (i : S100000x64.Idx) :
    Cert.Sage.biasRows64 b i = b (ix1 (i 1)) := by
  unfold Cert.Sage.biasRows64
  exact (broadcastInDim_apply _ _ _ i (ix2 0 (i 1)) (fun a => by
        match a with
        | ⟨0, _⟩ => rfl
        | ⟨1, _⟩ => rfl)).trans
    (broadcastInDim_apply _ _ _ (ix2 0 (i 1)) (ix1 (i 1)) (fun a => by
        match a with
        | ⟨0, _⟩ => rfl))

/-- `b` reshaped to one row, read at an index of that row: `b` at the column. -/
theorem row128_apply (b : FVec Ideal S128 .f32) (k : S1x128.Idx) (hk0 : (k 0).val = 0) :
    shapeCast S1x128 b shapeCasts_S128_S1x128 k = b (ix1 (k 1)) := by
  refine shapeCast_apply b shapeCasts_S128_S1x128 k (ix1 (k 1)) ?_
  rw [Shape.rowMajor_val_one, Shape.rowMajor_val_two]
  show (k 1).val = (k 0).val * 128 + (k 1).val
  omega

theorem row64_apply (b : FVec Ideal S64 .f32) (k : S1x64.Idx) (hk0 : (k 0).val = 0) :
    shapeCast S1x64 b shapeCasts_S64_S1x64 k = b (ix1 (k 1)) := by
  refine shapeCast_apply b shapeCasts_S64_S1x64 k (ix1 (k 1)) ?_
  rw [Shape.rowMajor_val_one, Shape.rowMajor_val_two]
  show (k 1).val = (k 0).val * 64 + (k 1).val
  omega

/-! ## The host stretches next to the sweeps, from any incoming contents

The stretch before the first sweep and the stretch between the sweeps are the same computation: from the rows of
sources and destinations and the reciprocal, which earlier operations left in their buffers, aggregate one feature
array; and reshape one bias vector to a row. They write nothing else the sweeps or later operations read. -/

section Stretches

variable (W : Valuation τ sig (Elt Ideal))

theorem before0_agg : StableHlo.after hostOps0_2 W (Proc.devRef .tc main_v27)
    = Cert.Sage.aggregateWith (F := Ideal) (W (Proc.devRef .tc main_arg0)) (W (Proc.devRef .tc main_v1)) (W (Proc.devRef .tc main_v3)) (W (Proc.devRef .tc main_v14)) := by
  after_results_simp <;> rfl

theorem before0_row : StableHlo.after hostOps0_2 W (Proc.devRef .tc main_v28)
    = shapeCast S1x128 (W (Proc.devRef .tc main_arg3)) shapeCasts_S128_S1x128 := by
  after_results_simp <;> rfl

theorem before0_keeps_arg0 : StableHlo.after hostOps0_2 W (Proc.devRef .tc main_arg0) = W (Proc.devRef .tc main_arg0) := by
  after_results_simp
theorem before0_keeps_arg2 : StableHlo.after hostOps0_2 W (Proc.devRef .tc main_arg2) = W (Proc.devRef .tc main_arg2) := by
  after_results_simp
theorem before0_keeps_arg4 : StableHlo.after hostOps0_2 W (Proc.devRef .tc main_arg4) = W (Proc.devRef .tc main_arg4) := by
  after_results_simp
theorem before0_keeps_arg5 : StableHlo.after hostOps0_2 W (Proc.devRef .tc main_arg5) = W (Proc.devRef .tc main_arg5) := by
  after_results_simp
theorem before0_keeps_arg6 : StableHlo.after hostOps0_2 W (Proc.devRef .tc main_arg6) = W (Proc.devRef .tc main_arg6) := by
  after_results_simp
theorem before0_keeps_arg7 : StableHlo.after hostOps0_2 W (Proc.devRef .tc main_arg7) = W (Proc.devRef .tc main_arg7) := by
  after_results_simp
theorem before0_keeps_v1 : StableHlo.after hostOps0_2 W (Proc.devRef .tc main_v1) = W (Proc.devRef .tc main_v1) := by
  after_results_simp
theorem before0_keeps_v3 : StableHlo.after hostOps0_2 W (Proc.devRef .tc main_v3) = W (Proc.devRef .tc main_v3) := by
  after_results_simp
theorem before0_keeps_v14 : StableHlo.after hostOps0_2 W (Proc.devRef .tc main_v14) = W (Proc.devRef .tc main_v14) := by
  after_results_simp

/-- The guarded reciprocal's last step, from any incoming contents: where the count is positive take the quotient, else 0. -/
theorem guard_v14 : StableHlo.after hostOps0_1 W (Proc.devRef .tc main_v14)
    = select (W (Proc.devRef .tc main_v9)) (W (Proc.devRef .tc main_v13)) (broadcastInDim S100000 ![] bcast_S_S100000 (id (W (Proc.devRef .tc main_cst_4)))) := by
  after_results_simp <;> rfl

theorem between_agg : StableHlo.after hostOps1 W (Proc.devRef .tc main_v42)
    = Cert.Sage.aggregateWith (F := Ideal) (W (Proc.devRef .tc main_v29)) (W (Proc.devRef .tc main_v1)) (W (Proc.devRef .tc main_v3)) (W (Proc.devRef .tc main_v14)) := by
  after_results_simp <;> rfl

theorem between_row : StableHlo.after hostOps1 W (Proc.devRef .tc main_v43)
    = shapeCast S1x64 (W (Proc.devRef .tc main_arg6)) shapeCasts_S64_S1x64 := by
  after_results_simp <;> rfl

theorem between_keeps_v29 : StableHlo.after hostOps1 W (Proc.devRef .tc main_v29) = W (Proc.devRef .tc main_v29) := by
  after_results_simp
theorem between_keeps_arg5 : StableHlo.after hostOps1 W (Proc.devRef .tc main_arg5) = W (Proc.devRef .tc main_arg5) := by
  after_results_simp
theorem between_keeps_arg7 : StableHlo.after hostOps1 W (Proc.devRef .tc main_arg7) = W (Proc.devRef .tc main_arg7) := by
  after_results_simp

end Stretches

/-! ## From the launch to the first sweep's door: the edge rows, the reciprocal, the arguments -/

set_option maxHeartbeats 4000000 in
theorem launch_v1 (c : Dev nD) : W2 m ρ c (Proc.devRef .tc main_v1) = Cert.Sage.edgeRow0 (m ((c.tc : Thread nD τ).loc main_arg1)) := by
  show StableHlo.after hostOps0_1 (StableHlo.after hostOps0 (W0 m ρ c)) (Proc.devRef .tc main_v1) = _
  after_results_simp <;> rfl
set_option maxHeartbeats 4000000 in
theorem launch_v3 (c : Dev nD) : W2 m ρ c (Proc.devRef .tc main_v3) = Cert.Sage.edgeRow1 (m ((c.tc : Thread nD τ).loc main_arg1)) := by
  show StableHlo.after hostOps0_1 (StableHlo.after hostOps0 (W0 m ρ c)) (Proc.devRef .tc main_v3) = _
  after_results_simp <;> rfl
set_option maxHeartbeats 4000000 in
/-- After the first stretch: the positivity test of the degree count, the quotient 1 / max(count, 1), and the zero the
    guard falls back to. -/
theorem first_v9 (c : Dev nD) : W1 m ρ c (Proc.devRef .tc main_v9)
    = cmpf .ogt (Cert.Sage.deg (F := Ideal) (m ((c.tc : Thread nD τ).loc main_arg1))) (broadcastInDim S100000 ![] bcast_S_S100000 (constant (F := Ideal) S_ .f32 0x00000000#32)) := by
  show StableHlo.after hostOps0 (W0 m ρ c) (Proc.devRef .tc main_v9) = _
  after_results_simp <;> rfl
set_option maxHeartbeats 4000000 in
theorem first_v13 (c : Dev nD) : W1 m ρ c (Proc.devRef .tc main_v13)
    = Host.divf (broadcastInDim S100000 ![] bcast_S_S100000 (constant (F := Ideal) S_ .f32 0x3F800000#32))
        (maximumf (Cert.Sage.deg (F := Ideal) (m ((c.tc : Thread nD τ).loc main_arg1))) (broadcastInDim S100000 ![] bcast_S_S100000 (constant (F := Ideal) S_ .f32 0x3F800000#32))) := by
  show StableHlo.after hostOps0 (W0 m ρ c) (Proc.devRef .tc main_v13) = _
  after_results_simp <;> rfl
set_option maxHeartbeats 4000000 in
theorem first_cst4 (c : Dev nD) : W1 m ρ c (Proc.devRef .tc main_cst_4) = constant (F := Ideal) S_ .f32 0x00000000#32 := by
  show StableHlo.after hostOps0 (W0 m ρ c) (Proc.devRef .tc main_cst_4) = _
  after_results_simp <;> rfl
/-- So the reciprocal's buffer holds degInv of the edge list. -/
theorem launch_v14 (c : Dev nD) : W2 m ρ c (Proc.devRef .tc main_v14) = Cert.Sage.degInv (F := Ideal) (m ((c.tc : Thread nD τ).loc main_arg1)) :=
  (guard_v14 (W1 m ρ c)).trans (by rw [first_v9 m ρ c, first_v13 m ρ c, first_cst4 m ρ c]; rfl)
set_option maxHeartbeats 4000000 in
theorem launch_arg0 (c : Dev nD) : W2 m ρ c (Proc.devRef .tc main_arg0) = (m ((c.tc : Thread nD τ).loc main_arg0)) := by
  show StableHlo.after hostOps0_1 (StableHlo.after hostOps0 (W0 m ρ c)) (Proc.devRef .tc main_arg0) = _
  after_results_simp <;> rfl
set_option maxHeartbeats 4000000 in
theorem launch_arg2 (c : Dev nD) : W2 m ρ c (Proc.devRef .tc main_arg2) = (m ((c.tc : Thread nD τ).loc main_arg2)) := by
  show StableHlo.after hostOps0_1 (StableHlo.after hostOps0 (W0 m ρ c)) (Proc.devRef .tc main_arg2) = _
  after_results_simp <;> rfl
set_option maxHeartbeats 4000000 in
theorem launch_arg3 (c : Dev nD) : W2 m ρ c (Proc.devRef .tc main_arg3) = (m ((c.tc : Thread nD τ).loc main_arg3)) := by
  show StableHlo.after hostOps0_1 (StableHlo.after hostOps0 (W0 m ρ c)) (Proc.devRef .tc main_arg3) = _
  after_results_simp <;> rfl
set_option maxHeartbeats 4000000 in
theorem launch_arg4 (c : Dev nD) : W2 m ρ c (Proc.devRef .tc main_arg4) = (m ((c.tc : Thread nD τ).loc main_arg4)) := by
  show StableHlo.after hostOps0_1 (StableHlo.after hostOps0 (W0 m ρ c)) (Proc.devRef .tc main_arg4) = _
  after_results_simp <;> rfl
set_option maxHeartbeats 4000000 in
theorem launch_arg5 (c : Dev nD) : W2 m ρ c (Proc.devRef .tc main_arg5) = (m ((c.tc : Thread nD τ).loc main_arg5)) := by
  show StableHlo.after hostOps0_1 (StableHlo.after hostOps0 (W0 m ρ c)) (Proc.devRef .tc main_arg5) = _
  after_results_simp <;> rfl
set_option maxHeartbeats 4000000 in
theorem launch_arg6 (c : Dev nD) : W2 m ρ c (Proc.devRef .tc main_arg6) = (m ((c.tc : Thread nD τ).loc main_arg6)) := by
  show StableHlo.after hostOps0_1 (StableHlo.after hostOps0 (W0 m ρ c)) (Proc.devRef .tc main_arg6) = _
  after_results_simp <;> rfl
set_option maxHeartbeats 4000000 in
theorem launch_arg7 (c : Dev nD) : W2 m ρ c (Proc.devRef .tc main_arg7) = (m ((c.tc : Thread nD τ).loc main_arg7)) := by
  show StableHlo.after hostOps0_1 (StableHlo.after hostOps0 (W0 m ρ c)) (Proc.devRef .tc main_arg7) = _
  after_results_simp <;> rfl

/-! ## What the first sweep finds, and what it leaves -/

theorem entry0_agg (c : Dev nD) : V3 m ρ c main_v27 = Cert.Sage.aggregate (F := Ideal) (m ((c.tc : Thread nD τ).loc main_arg0)) (m ((c.tc : Thread nD τ).loc main_arg1)) :=
  (before0_agg (W2 m ρ c)).trans (by rw [launch_arg0 m ρ c, launch_v1 m ρ c, launch_v3 m ρ c, launch_v14 m ρ c]; rfl)
theorem entry0_x (c : Dev nD) : V3 m ρ c main_arg0 = (m ((c.tc : Thread nD τ).loc main_arg0)) :=
  (before0_keeps_arg0 (W2 m ρ c)).trans (launch_arg0 m ρ c)
theorem entry0_wl (c : Dev nD) : V3 m ρ c main_arg2 = (m ((c.tc : Thread nD τ).loc main_arg2)) :=
  (before0_keeps_arg2 (W2 m ρ c)).trans (launch_arg2 m ρ c)
theorem entry0_wr (c : Dev nD) : V3 m ρ c main_arg4 = (m ((c.tc : Thread nD τ).loc main_arg4)) :=
  (before0_keeps_arg4 (W2 m ρ c)).trans (launch_arg4 m ρ c)
theorem entry0_row (c : Dev nD) : V3 m ρ c main_v28 = shapeCast S1x128 (m ((c.tc : Thread nD τ).loc main_arg3)) shapeCasts_S128_S1x128 :=
  (before0_row (W2 m ρ c)).trans (by rw [launch_arg3 m ρ c])

/-- The first sweep leaves the first layer in its result array. -/
theorem sweep0_result (c : Dev nD) :
    W4 m ρ c (Proc.devRef .tc main_v29) = Cert.Sage.layer0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 5).trans ?_
  refine (Cert.KernelIdeal.Blocks.array0 (V3 m ρ) c _ _ _ _ (Cert.Sage.biasRows128 (m ((c.tc : Thread nD τ).loc main_arg3)))
    (entry0_agg m ρ c) (entry0_x m ρ c) (entry0_wl m ρ c) (entry0_wr m ρ c) (fun i k hk0 hk1 => ?_)).trans rfl
  rw [entry0_row m ρ c, row128_apply _ k hk0, biasRows128_apply]
  exact congrArg _ (funext fun a => by
    match a with
    | ⟨0, _⟩ => exact Fin.ext hk1)

/-! ## Between the sweeps: nothing the second aggregation reads has moved -/

theorem mid_v1 (c : Dev nD) : W4 m ρ c (Proc.devRef .tc main_v1) = Cert.Sage.edgeRow0 (m ((c.tc : Thread nD τ).loc main_arg1)) :=
  (W4_of_ne m ρ c main_v1 (by decide)).trans ((before0_keeps_v1 (W2 m ρ c)).trans (launch_v1 m ρ c))
theorem mid_v3 (c : Dev nD) : W4 m ρ c (Proc.devRef .tc main_v3) = Cert.Sage.edgeRow1 (m ((c.tc : Thread nD τ).loc main_arg1)) :=
  (W4_of_ne m ρ c main_v3 (by decide)).trans ((before0_keeps_v3 (W2 m ρ c)).trans (launch_v3 m ρ c))
theorem mid_v14 (c : Dev nD) : W4 m ρ c (Proc.devRef .tc main_v14) = Cert.Sage.degInv (F := Ideal) (m ((c.tc : Thread nD τ).loc main_arg1)) :=
  (W4_of_ne m ρ c main_v14 (by decide)).trans ((before0_keeps_v14 (W2 m ρ c)).trans (launch_v14 m ρ c))
theorem mid_arg5 (c : Dev nD) : W4 m ρ c (Proc.devRef .tc main_arg5) = (m ((c.tc : Thread nD τ).loc main_arg5)) :=
  (W4_of_ne m ρ c main_arg5 (by decide)).trans ((before0_keeps_arg5 (W2 m ρ c)).trans (launch_arg5 m ρ c))
theorem mid_arg6 (c : Dev nD) : W4 m ρ c (Proc.devRef .tc main_arg6) = (m ((c.tc : Thread nD τ).loc main_arg6)) :=
  (W4_of_ne m ρ c main_arg6 (by decide)).trans ((before0_keeps_arg6 (W2 m ρ c)).trans (launch_arg6 m ρ c))
theorem mid_arg7 (c : Dev nD) : W4 m ρ c (Proc.devRef .tc main_arg7) = (m ((c.tc : Thread nD τ).loc main_arg7)) :=
  (W4_of_ne m ρ c main_arg7 (by decide)).trans ((before0_keeps_arg7 (W2 m ρ c)).trans (launch_arg7 m ρ c))

/-! ## What the second sweep finds, and what it leaves -/

theorem entry1_agg (c : Dev nD) : V5 m ρ c main_v42
    = Cert.Sage.aggregate (F := Ideal) (Cert.Sage.layer0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) :=
  (between_agg (W4 m ρ c)).trans (by rw [sweep0_result m ρ c, mid_v1 m ρ c, mid_v3 m ρ c, mid_v14 m ρ c]; rfl)
theorem entry1_h (c : Dev nD) : V5 m ρ c main_v29 = Cert.Sage.layer0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (between_keeps_v29 (W4 m ρ c)).trans (sweep0_result m ρ c)
theorem entry1_wl (c : Dev nD) : V5 m ρ c main_arg5 = (m ((c.tc : Thread nD τ).loc main_arg5)) :=
  (between_keeps_arg5 (W4 m ρ c)).trans (mid_arg5 m ρ c)
theorem entry1_wr (c : Dev nD) : V5 m ρ c main_arg7 = (m ((c.tc : Thread nD τ).loc main_arg7)) :=
  (between_keeps_arg7 (W4 m ρ c)).trans (mid_arg7 m ρ c)
theorem entry1_row (c : Dev nD) : V5 m ρ c main_v43 = shapeCast S1x64 (m ((c.tc : Thread nD τ).loc main_arg6)) shapeCasts_S64_S1x64 :=
  (between_row (W4 m ρ c)).trans (by rw [mid_arg6 m ρ c])

/-- The second sweep leaves the network's value in the program's result array. -/
theorem result (c : Dev nD) :
    W6 m ρ c (Proc.devRef .tc main_v44)
      = Cert.Sage.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 5).trans ?_
  refine (Cert.KernelIdeal.Blocks.array1 (V5 m ρ) c _ _ _ _ (Cert.Sage.biasRows64 (m ((c.tc : Thread nD τ).loc main_arg6)))
    (entry1_agg m ρ c) (entry1_h m ρ c) (entry1_wl m ρ c) (entry1_wr m ρ c) (fun i k hk0 hk1 => ?_)).trans rfl
  rw [entry1_row m ρ c, row64_apply _ k hk0, biasRows64_apply]
  exact congrArg _ (funext fun a => by
    match a with
    | ⟨0, _⟩ => exact Fin.ext hk1)

end Cert.KernelIdeal.Chain

end
-- ==== Proof.lean ====
/-
  Two stacked mean-aggregation graph layers, computed with two row-blocked sweeps, against the same network on the
  host: equal over the extended reals.

  Both programs count, for every node, the edges that end there, take the guarded reciprocal, and twice aggregate (gather
  the source rows, add them at the destinations, scale) and apply a linear layer. They do the gathers, the scatter-adds
  and the scalings with the same host operations; they differ in the layer alone. The host computes
  (A · W_l + b) + H · W_r on all 100000 rows at once; the kernel cuts the rows into twenty blocks of 5000 and computes
  (a · W_l + h · W_r) + b on each. A block of rows of a product is the product of that block of rows, the blocks tile the
  array, and (p + q) + b = (p + b) + q holds on the extended reals by commutativity and associativity alone — so
  nothing is assumed finite, and the precondition is never opened. Narrowing to 16-bit floats before the products is
  the identity on extended reals.

  `Sage.result` (Spec) is the network as one function of the eight arrays. The reference's run ends at it (RefRun);
  the kernel's run ends with its result buffer at the last sweep's array (KernelRun), which is `Sage.result` of the
  same arrays (KernelValue, over the two sweeps' block lemmas in KernelBlocks). The kernel's idealization rewrote no
  operation, so there is nothing to preserve.
-/
import proofs.«142955_j38225208934555_1_alg».proof.Defs
import proofs.«142955_j38225208934555_1_alg».proof.Proof.Gen.Kernel
import proofs.«142955_j38225208934555_1_alg».proof.Proof.Gen.Kernel.Frame
import proofs.«142955_j38225208934555_1_alg».proof.Proof.Gen.KernelIdeal
import proofs.«142955_j38225208934555_1_alg».proof.Proof.Gen.KernelIdeal.Frame
import proofs.«142955_j38225208934555_1_alg».proof.Proof.Gen.ReferenceIdeal
import proofs.«142955_j38225208934555_1_alg».proof.Proof.Gen.Pre_finite_inputs
import proofs.«142955_j38225208934555_1_alg».proof.Proof.RefRun
import proofs.«142955_j38225208934555_1_alg».proof.Proof.KernelRun
import proofs.«142955_j38225208934555_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference is host operations only: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.HandRun.run (F := Ideal) m ρ)

/-- From memories that agree on the eight arguments both programs end with the network's value of those arguments in
    their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Sage.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.result m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.HandRun.run (F := Ideal) m' ρ')
    obtain ⟨a0, a1, a2, a3, a4, a5, a6, a7⟩ := hagree c
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
